-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x600000 32) (main_arg2 : FVec F S600000 .f32) (main_arg3 : IVec S2x600000 32) (main_arg4 : FVec F S600000 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S600000 .f32 := Host.absf main_arg4
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x384 : Shape := ⟨2, ![128, 384]⟩
abbrev S1x128 : Shape := ⟨2, ![1, 128]⟩
abbrev S4000x128 : Shape := ⟨2, ![4000, 128]⟩
abbrev S4000x384 : Shape := ⟨2, ![4000, 384]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩

abbrev nBuf : Space → Nat
  | .hbm => 64
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S2x600000, .i32⟩
  | .hbm, ⟨4, _⟩ => ⟨S600000, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x384, .f32⟩
  | .hbm, ⟨12, _⟩ => ⟨S1x128, .f32⟩
  | .hbm, ⟨13, _⟩ => ⟨S100000x128, .f32⟩
  | .hbm, ⟨14, _⟩ => ⟨S100000x128, .bf16⟩
  | .hbm, ⟨15, _⟩ => ⟨S100000x128, .bf16⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .bf16⟩
  | .hbm, ⟨29, _⟩ => ⟨S600000x128, .f32⟩
  | .hbm, ⟨30, _⟩ => ⟨S600000x1, .f32⟩
  | .hbm, ⟨31, _⟩ => ⟨S600000x128, .f32⟩
  | .hbm, ⟨32, _⟩ => ⟨S600000x128, .f32⟩
  | .hbm, ⟨33, _⟩ => ⟨S_, .f32⟩
  | .hbm, ⟨34, _⟩ => ⟨S100000x128, .f32⟩
  | .hbm, ⟨35, _⟩ => ⟨S600000x1, .i32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S1x600000, .i32⟩
  | .hbm, ⟨41, _⟩ => ⟨S600000, .i32⟩
  | .hbm, ⟨42, _⟩ => ⟨S1x600000, .i32⟩
  | .hbm, ⟨43, _⟩ => ⟨S600000, .i32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .bf16⟩
  | .hbm, ⟨53, _⟩ => ⟨S600000x128, .f32⟩
  | .hbm, ⟨54, _⟩ => ⟨S600000x1, .f32⟩
  | .hbm, ⟨55, _⟩ => ⟨S600000x128, .f32⟩
  | .hbm, ⟨56, _⟩ => ⟨S600000x128, .f32⟩
  | .hbm, ⟨57, _⟩ => ⟨S_, .f32⟩
  | .hbm, ⟨58, _⟩ => ⟨S100000x128, .f32⟩
  | .hbm, ⟨59, _⟩ => ⟨S600000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x384, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .bf16⟩
  | .local _ .vmem, ⟨7, _⟩ => ⟨S4000x128, .bf16⟩
  | .local _ .vmem, ⟨8, _⟩ => ⟨S4000x128, .bf16⟩
  | .local _ .vmem, ⟨9, _⟩ => ⟨S4000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_1 : Ref sig .tc := ⟨.hbm, 44, rfl⟩
abbrev main_v28 : Ref sig .tc := ⟨.hbm, 45, rfl⟩
abbrev main_v29 : Ref sig .tc := ⟨.hbm, 46, rfl⟩
abbrev main_c_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S128x128_S128x128_S128x128_S128x384_d1 : Shape.Concatenates [S128x128, S128x128, S128x128] S128x384 1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S4000x384_o0_0_S4000x128 : S4000x384.Slices ![0, 0] S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S4000x384_o0_128_S4000x128 : S4000x384.Slices ![0, 128] S4000x128
  packedbf16_S4000x128_S4000x128_0_0 : (Rect.unit (s := S4000x128) ![0, 0] S4000x128.size inb_S4000x128_S4000x128_0_0).PackedRows (EltTy.packing .bf16)
  slices_S4000x384_o0_256_S4000x128 : S4000x384.Slices ![0, 256] S4000x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S4000x128_S128x384_S4000x384_1_0_0_1_n_n_wf : DotDims.WF S4000x128 S128x384 S4000x384 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .bf16 = 32 ∨ (Rect.block (s := S100000x128) S4000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .bf16 = 32 ∨ (Rect.block (s := S100000x128) S4000x128.size (cc0_transform_5 i) (hinb0_5 i)).WholeWords (EltTy.packing .bf16)

variable [Facts₀]

def dot_S4000x128_S128x384_S4000x384_1_0_0_1_n_n : DotDims S4000x128 S128x384 S4000x384 where
  lhsContracting := [1]
  rhsContracting := [0]
  lhsNonContracting := [0]
  rhsNonContracting := [1]
  lhsBatch := []
  rhsBatch := []
  wf := dot_S4000x128_S128x384_S4000x384_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S4000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S2x600000, .i32⟩
  | .hbm, ⟨4, _⟩ => ⟨S600000, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S100000x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S1x600000, .i32⟩
  | .hbm, ⟨17, _⟩ => ⟨S600000, .i32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S600000x1, .f32⟩
  | .hbm, ⟨28, _⟩ => ⟨S600000x128, .f32⟩
  | .hbm, ⟨29, _⟩ => ⟨S600000x128, .f32⟩
  | .hbm, ⟨30, _⟩ => ⟨S1x600000, .i32⟩
  | .hbm, ⟨31, _⟩ => ⟨S600000, .i32⟩
  | .hbm, ⟨32, _⟩ => ⟨S_, .f32⟩
  | .hbm, ⟨33, _⟩ => ⟨S100000x128, .f32⟩
  | .hbm, ⟨34, _⟩ => ⟨S600000x1, .i32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x600000, .i32⟩
  | .hbm, ⟨41, _⟩ => ⟨S600000, .i32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S600000x1, .f32⟩
  | .hbm, ⟨52, _⟩ => ⟨S600000x128, .f32⟩
  | .hbm, ⟨53, _⟩ => ⟨S600000x128, .f32⟩
  | .hbm, ⟨54, _⟩ => ⟨S1x600000, .i32⟩
  | .hbm, ⟨55, _⟩ => ⟨S600000, .i32⟩
  | .hbm, ⟨56, _⟩ => ⟨S_, .f32⟩
  | .hbm, ⟨57, _⟩ => ⟨S100000x128, .f32⟩
  | .hbm, ⟨58, _⟩ => ⟨S600000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_1 : Ref sig .tc := ⟨.hbm, 42, rfl⟩
abbrev main_v28 : Ref sig .tc := ⟨.hbm, 43, rfl⟩
abbrev main_v29 : Ref sig .tc := ⟨.hbm, 44, rfl⟩
abbrev main_c_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  slices_S2x600000_S1x600000_1_0 : S2x600000.Slices ![1, 0] S1x600000
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.RegionBits.lean ====
/-
  The frame of the fused projection kernel: the program runs to its end, faults nowhere and leaves its eleven
  argument arrays as they were launched.

  The program concatenates the three 128×128 weight matrices side by side and lays the bias out as one row, then
  launches one region over 25 grid points, then gathers, scales and scatter-adds on the host.  At grid point t the
  region stages rows 4000·t … 4000·t+3999 of x, the whole 128×384 weight matrix and the bias row; the body multiplies
  the block by the matrix, cuts the product into three 4000×128 column bands, adds the bias row to the first and
  stores each band whole into one of three output blocks, which are written back at every point.  Each output
  block after the body is therefore one store covering the whole block (`band0`, `band1`, `band2` below), a function
  of the three staged inputs only; what the output buffers held before is read once by the body and never used.
-/
import proofs.«125056_j84310208020812_2_alg».proof.Proof.Gen.Kernel.Launch
import proofs.«125056_j84310208020812_2_alg».proof.Proof.Gen.Kernel.Skeleton
import proofs.«125056_j84310208020812_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffer contents of core `c` when the region is entered: the launch memory after the two host operations
    that build the 128×384 weight matrix and the bias row. -/
abbrev V0 (c : Dev nD) : Valuation τ sig (Elt F) := StableHlo.after (List.flatten [hostOps0]) (fun b => m (c, b))
/-- The same read at a buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the two host operations, the region, then the 48 host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the region's arrays and buffers the region never stages. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the region's six arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3, and it is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4, and it is no array of the region: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5, and it is no array of the region: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 6, and it is no array of the region: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 7, and it is no array of the region: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 8, and it is no array of the region: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 9, and it is no array of the region: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 10, and it is no array of the region: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The staged blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not it was fetched there
    (an unfetched window's block index has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether or not it was fetched there
    (an unfetched window's block index has not moved). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether or not it was fetched there
    (an unfetched window's block index has not moved). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

/-- From a run that ends with every array of the region at what its write-backs leave and every other buffer as the
    later host operations leave it: the eleven arguments end as launched (x is the array of an input window, which no
    write-back touches; the other ten are staged by no window and written by no host operation). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

/-! ## What the body leaves in the three output blocks -/

abbrev rX : Rect S4000x128 := Rect.unit (s := S4000x128) ![0, 0] S4000x128.size inb_S4000x128_S4000x128_0_0
abbrev rW : Rect S128x384 := Rect.unit (s := S128x384) ![0, 0] S128x384.size inb_S128x384_S128x384_0_0
abbrev rB : Rect S1x128 := Rect.unit (s := S1x128) ![0, 0] S1x128.size inb_S1x128_S1x128_0_0

/-- The first output block: the first column band of (block of x) · (weights), plus the bias row. -/
def band0 (x0 : Vec F S4000x128 .f32) (x1 : Vec F S128x384 .f32) (x2 : Vec F S1x128 .f32) : Vec F S4000x128 .f32 :=
  View.canon [⟨rX, k0_pay2 (View.ld x0 rX) (View.ld x1 rW) (View.ld x2 rB)⟩]
/-- The second output block: the second column band of the product. -/
def band1 (x0 : Vec F S4000x128 .f32) (x1 : Vec F S128x384 .f32) : Vec F S4000x128 .bf16 :=
  View.canon [⟨rX, k0_pay3 (View.ld x0 rX) (View.ld x1 rW)⟩]
/-- The third output block: the third column band of the product. -/
def band2 (x0 : Vec F S4000x128 .f32) (x1 : Vec F S128x384 .f32) : Vec F S4000x128 .bf16 :=
  View.canon [⟨rX, k0_pay4 (View.ld x0 rX) (View.ld x1 rW)⟩]

/-- One store through the whole-block rectangle covers the block. -/
theorem coverF32 (p0 : Vec F S4000x128 .f32) (y : S4000x128.Idx) :
    ∃ pc ∈ ([⟨rX, p0⟩] : List (View.Piece (Elt F) S4000x128 .f32)), y ∈ pc.1.set :=
  View.cover_of_tiled [⟨rX, p0⟩] S4000x128.size (by rfl) y
theorem coverBf16 (p0 : Vec F S4000x128 .bf16) (y : S4000x128.Idx) :
    ∃ pc ∈ ([⟨rX, p0⟩] : List (View.Piece (Elt F) S4000x128 .bf16)), y ∈ pc.1.set :=
  View.cover_of_tiled [⟨rX, p0⟩] S4000x128.size (by rfl) y

/-! ## The body's triple -/

set_option maxHeartbeats 4000000 in
/-- The body on whole staging buffers — the three inputs' at read contents `x0`, `x1`, `x2`, the three outputs' at
    anything — runs to its end holding the inputs' as they were and the outputs' at the three bands. -/
theorem sound_kernel (c : Dev nD) (E : Set ℕ) (i : grid0.Coords)
    (arg1 : Memref sig .tc .vmem S4000x128 .f32) (harg1 : arg1.IsWhole) (arg2 : Memref sig .tc .vmem S128x384 .f32) (harg2 : arg2.IsWhole)
    (arg3 : Memref sig .tc .vmem S1x128 .f32) (harg3 : arg3.IsWhole) (arg4 : Memref sig .tc .vmem S4000x128 .f32) (harg4 : arg4.IsWhole)
    (arg5 : Memref sig .tc .vmem S4000x128 .bf16) (harg5 : arg5.IsWhole) (arg6 : Memref sig .tc .vmem S4000x128 .bf16) (harg6 : arg6.IsWhole)
    (x0 : Vec F S4000x128 .f32) (x1 : Vec F S128x384 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (band0 x0 x1 x2) ∗ owns (c : Thread nD τ) arg5 fullShare (band1 x0 x1)
            ∗ owns (c : Thread nD τ) arg6 fullShare (band2 x0 x1)) -∗ K ⟨⟩))
      ⊢ wp frame (wpE (defs₀ (F := F)) Variants.none c none) E (cc0__fused_matmul_kernel i arg1 harg1 arg2 harg2 arg3 harg3 arg4 harg4 arg5 harg5 arg6 harg6) K := by
  simp only [cc0__fused_matmul_kernel_eq_skeleton]; unfold cc0__fused_matmul_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverF32 _)
  isplitl [H4]
  · iexists _; isplitr
    swap; · iexact H4
    ipureintro
    exact View.read_writes_eq_canon _ _ _ (coverBf16 _)
  iexists _; isplitr
  swap; · iexact H5
  ipureintro
  exact View.read_writes_eq_canon _ _ _ (coverBf16 _)

/-! ## The region's proof data -/

/-- On core `c`: the arrays as the region finds them; after the body at point `t` each input's buffer at its block and
    each output's at its band of the input blocks; nothing owed, full shares, the untouched rest as invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => band0 (iblk m c 0 t) (iblk m c 1 t) (iblk m c 2 t)
    | ⟨4, _⟩ => band1 (iblk m c 0 t) (iblk m c 1 t)
    | ⟨5, _⟩ => band2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = band0 (iblk m c 0 t) (iblk m c 1 t) (iblk m c 2 t) := by dsimp only [dats]
theorem after4 (c : Dev nD) (t : Fin cfg0.N) : (dats m 0 c).after 4 t = band1 (iblk m c 0 t) (iblk m c 1 t) := by dsimp only [dats]
theorem after5 (c : Dev nD) (t : Fin cfg0.N) : (dats m 0 c).after 5 t = band2 (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, with each of the region's six arrays at what the write-backs leave
    and every other unscoped buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Region

end
-- ==== Proof.RegionIdeal.lean ====
/-
  The frame of the fused projection kernel: the program runs to its end, faults nowhere and leaves its eleven
  argument arrays as they were launched.

  The program concatenates the three 128×128 weight matrices side by side and lays the bias out as one row, then
  launches one region over 25 grid points, then gathers, scales and scatter-adds on the host.  At grid point t the
  region stages rows 4000·t … 4000·t+3999 of x, the whole 128×384 weight matrix and the bias row; the body multiplies
  the block by the matrix, cuts the product into three 4000×128 column bands, adds the bias row to the first and
  stores each band whole into one of three output blocks, which are written back at every point.  Each output
  block after the body is therefore one store covering the whole block (`band0`, `band1`, `band2` below), a function
  of the three staged inputs only; what the output buffers held before is read once by the body and never used.
-/
import proofs.«125056_j84310208020812_2_alg».proof.Proof.Gen.KernelIdeal.Launch
import proofs.«125056_j84310208020812_2_alg».proof.Proof.Gen.KernelIdeal.Skeleton
import proofs.«125056_j84310208020812_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffer contents of core `c` when the region is entered: the launch memory after the two host operations
    that build the 128×384 weight matrix and the bias row. -/
abbrev V0 (c : Dev nD) : Valuation τ sig (Elt F) := StableHlo.after (List.flatten [hostOps0]) (fun b => m (c, b))
/-- The same read at a buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the two host operations, the region, then the 48 host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the region's arrays and buffers the region never stages. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the region's six arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3, and it is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4, and it is no array of the region: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5, and it is no array of the region: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 6, and it is no array of the region: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 7, and it is no array of the region: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 8, and it is no array of the region: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 9, and it is no array of the region: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 10, and it is no array of the region: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The staged blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not it was fetched there
    (an unfetched window's block index has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether or not it was fetched there
    (an unfetched window's block index has not moved). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether or not it was fetched there
    (an unfetched window's block index has not moved). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

/-- From a run that ends with every array of the region at what its write-backs leave and every other buffer as the
    later host operations leave it: the eleven arguments end as launched (x is the array of an input window, which no
    write-back touches; the other ten are staged by no window and written by no host operation). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

/-! ## What the body leaves in the three output blocks -/

abbrev rX : Rect S4000x128 := Rect.unit (s := S4000x128) ![0, 0] S4000x128.size inb_S4000x128_S4000x128_0_0
abbrev rW : Rect S128x384 := Rect.unit (s := S128x384) ![0, 0] S128x384.size inb_S128x384_S128x384_0_0
abbrev rB : Rect S1x128 := Rect.unit (s := S1x128) ![0, 0] S1x128.size inb_S1x128_S1x128_0_0

/-- The first output block: the first column band of (block of x) · (weights), plus the bias row. -/
def band0 (x0 : Vec F S4000x128 .f32) (x1 : Vec F S128x384 .f32) (x2 : Vec F S1x128 .f32) : Vec F S4000x128 .f32 :=
  View.canon [⟨rX, k0_pay2 (View.ld x0 rX) (View.ld x1 rW) (View.ld x2 rB)⟩]
/-- The second output block: the second column band of the product. -/
def band1 (x0 : Vec F S4000x128 .f32) (x1 : Vec F S128x384 .f32) : Vec F S4000x128 .bf16 :=
  View.canon [⟨rX, k0_pay3 (View.ld x0 rX) (View.ld x1 rW)⟩]
/-- The third output block: the third column band of the product. -/
def band2 (x0 : Vec F S4000x128 .f32) (x1 : Vec F S128x384 .f32) : Vec F S4000x128 .bf16 :=
  View.canon [⟨rX, k0_pay4 (View.ld x0 rX) (View.ld x1 rW)⟩]

/-- One store through the whole-block rectangle covers the block. -/
theorem coverF32 (p0 : Vec F S4000x128 .f32) (y : S4000x128.Idx) :
    ∃ pc ∈ ([⟨rX, p0⟩] : List (View.Piece (Elt F) S4000x128 .f32)), y ∈ pc.1.set :=
  View.cover_of_tiled [⟨rX, p0⟩] S4000x128.size (by rfl) y
theorem coverBf16 (p0 : Vec F S4000x128 .bf16) (y : S4000x128.Idx) :
    ∃ pc ∈ ([⟨rX, p0⟩] : List (View.Piece (Elt F) S4000x128 .bf16)), y ∈ pc.1.set :=
  View.cover_of_tiled [⟨rX, p0⟩] S4000x128.size (by rfl) y

/-! ## The body's triple -/

set_option maxHeartbeats 4000000 in
/-- The body on whole staging buffers — the three inputs' at read contents `x0`, `x1`, `x2`, the three outputs' at
    anything — runs to its end holding the inputs' as they were and the outputs' at the three bands. -/
theorem sound_kernel (c : Dev nD) (E : Set ℕ) (i : grid0.Coords)
    (arg1 : Memref sig .tc .vmem S4000x128 .f32) (harg1 : arg1.IsWhole) (arg2 : Memref sig .tc .vmem S128x384 .f32) (harg2 : arg2.IsWhole)
    (arg3 : Memref sig .tc .vmem S1x128 .f32) (harg3 : arg3.IsWhole) (arg4 : Memref sig .tc .vmem S4000x128 .f32) (harg4 : arg4.IsWhole)
    (arg5 : Memref sig .tc .vmem S4000x128 .bf16) (harg5 : arg5.IsWhole) (arg6 : Memref sig .tc .vmem S4000x128 .bf16) (harg6 : arg6.IsWhole)
    (x0 : Vec F S4000x128 .f32) (x1 : Vec F S128x384 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (band0 x0 x1 x2) ∗ owns (c : Thread nD τ) arg5 fullShare (band1 x0 x1)
            ∗ owns (c : Thread nD τ) arg6 fullShare (band2 x0 x1)) -∗ K ⟨⟩))
      ⊢ wp frame (wpE (defs₀ (F := F)) Variants.none c none) E (cc0__fused_matmul_kernel i arg1 harg1 arg2 harg2 arg3 harg3 arg4 harg4 arg5 harg5 arg6 harg6) K := by
  simp only [cc0__fused_matmul_kernel_eq_skeleton]; unfold cc0__fused_matmul_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverF32 _)
  isplitl [H4]
  · iexists _; isplitr
    swap; · iexact H4
    ipureintro
    exact View.read_writes_eq_canon _ _ _ (coverBf16 _)
  iexists _; isplitr
  swap; · iexact H5
  ipureintro
  exact View.read_writes_eq_canon _ _ _ (coverBf16 _)

/-! ## The region's proof data -/

/-- On core `c`: the arrays as the region finds them; after the body at point `t` each input's buffer at its block and
    each output's at its band of the input blocks; nothing owed, full shares, the untouched rest as invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => band0 (iblk m c 0 t) (iblk m c 1 t) (iblk m c 2 t)
    | ⟨4, _⟩ => band1 (iblk m c 0 t) (iblk m c 1 t)
    | ⟨5, _⟩ => band2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = band0 (iblk m c 0 t) (iblk m c 1 t) (iblk m c 2 t) := by dsimp only [dats]
theorem after4 (c : Dev nD) (t : Fin cfg0.N) : (dats m 0 c).after 4 t = band1 (iblk m c 0 t) (iblk m c 1 t) := by dsimp only [dats]
theorem after5 (c : Dev nD) (t : Fin cfg0.N) : (dats m 0 c).after 5 t = band2 (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, with each of the region's six arrays at what the write-backs leave
    and every other unscoped buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Region

end
-- ==== Proof.LibHostRead.lean ====
/-
  Host operations on matrices read at one index of their result, over the extended reals.

  A host product of an R × K matrix by a K × C matrix is, at (p, q), the K-term sum of the products of row p of the
  first by column q of the second.  A host sum along the second axis of an R × C matrix is, at row r, the initial
  value plus the C-term sum of that row; along the first axis, at column c, the initial value plus the R-term sum of
  that column.  Spreading a scalar, a vector along the columns of every row, or a vector along the rows of every
  column, repeats the entry it came from.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.LibHostRead

open Idealize.ShloMosaic Idealize.ShloMosaic.ValueIdx

/-! ## A matrix product -/

section Dot
variable {R K C : ℕ}

/-- On the first operand's row axis the operand index is the result's row. -/
theorem lhsIdx_row (D : DotDims ⟨2, ![R, K]⟩ ⟨2, ![K, C]⟩ ⟨2, ![R, C]⟩) (hlb : D.lhsBatch = [])
    (hln : D.lhsNonContracting = [0]) (j : (⟨2, ![R, C]⟩ : Shape).Idx) (k : D.contr.Idx) :
    (D.lhsIdx j k (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![R, C]⟩ : Shape).rank) (hb : b < (⟨2, ![R, C]⟩ : Shape).rank), a = b →
      (j ⟨a, ha⟩).val = (j ⟨b, hb⟩).val := fun a b ha hb h => by subst h; rfl
  exact key _ _ _ _ (by simp [hlb, hln])

/-- On the second operand's column axis the operand index is the result's column. -/
theorem rhsIdx_col (D : DotDims ⟨2, ![R, K]⟩ ⟨2, ![K, C]⟩ ⟨2, ![R, C]⟩) (hlb : D.lhsBatch = []) (hrb : D.rhsBatch = [])
    (hln : D.lhsNonContracting = [0]) (hrn : D.rhsNonContracting = [1]) (j : (⟨2, ![R, C]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![R, C]⟩ : Shape).rank) (hb : b < (⟨2, ![R, C]⟩ : Shape).rank), a = b →
      (j ⟨a, ha⟩).val = (j ⟨b, hb⟩).val := fun a b ha hb h => by subst h; rfl
  exact key _ _ _ _ (by simp [hlb, hln, hrn])

/-- A host rows-by-columns product at (p, q): the sum over the shared axis of the products. -/
theorem dotGeneral_ix2 {φ₁ φ₂ : FTy} (D : DotDims ⟨2, ![R, K]⟩ ⟨2, ![K, C]⟩ ⟨2, ![R, C]⟩)
    (hlc : D.lhsContracting = [1]) (hrc : D.rhsContracting = [0]) (hlb : D.lhsBatch = []) (hrb : D.rhsBatch = [])
    (hln : D.lhsNonContracting = [0]) (hrn : D.rhsNonContracting = [1])
    (prec : Option ContractPrecision) (lhs : FVec Ideal ⟨2, ![R, K]⟩ φ₁) (rhs : FVec Ideal ⟨2, ![K, C]⟩ φ₂)
    (p : Fin R) (q : Fin C) :
    Host.dotGeneral D prec lhs rhs (ix2 p q) = ∑ k : Fin K, lhs (ix2 p k) * rhs (ix2 k q) := by
  have hr : D.contr.rank = 1 := by rw [D.rank_contr, hlc]; rfl
  have hs : D.contr.size ⟨0, by omega⟩ = K := by
    have e := D.size_contr 0 (by rw [hlc]; exact Nat.one_pos)
    rw [e]
    simp [hlc]
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_col D hlb hrb hln hrn _ _)
  rw [el, er]

end Dot

/-! ## Host sums along one axis of a matrix -/

section Sums
variable {R C : ℕ} {φ : FTy}

/-- The host sum along the second axis, at row r. -/
theorem reduceAdd_lanes_ix1 (x : FVec Ideal ⟨2, ![R, C]⟩ φ) (init : EReal)
    (h : (⟨2, ![R, C]⟩ : Shape).ReducesTo [1] ⟨1, ![R]⟩)
    (hr : (⟨2, ![R, C]⟩ : Shape).Reduces [1] ⟨1, ![R]⟩) (r : Fin R) :
    Ideal.hostReduceAdd h x init (ix1 r) = init + ∑ k : Fin C, x (ix2 r k) := by
  rw [Ideal.hostReduceAdd_single h hr]
  refine congrArg (_ + ·) (Finset.sum_congr rfl fun k _ => congrArg x (funext fun a => Fin.ext ?_))
  match a with
  | ⟨0, _⟩ => rfl
  | ⟨1, _⟩ => rfl

/-- The host sum along the first axis, at column c. -/
theorem reduceAdd_rows_ix1 (x : FVec Ideal ⟨2, ![R, C]⟩ φ) (init : EReal)
    (h : (⟨2, ![R, C]⟩ : Shape).ReducesTo [0] ⟨1, ![C]⟩)
    (hr : (⟨2, ![R, C]⟩ : Shape).Reduces [0] ⟨1, ![C]⟩) (c : Fin C) :
    Ideal.hostReduceAdd h x init (ix1 c) = init + ∑ r : Fin R, x (ix2 r c) := by
  rw [Ideal.hostReduceAdd_single h hr]
  refine congrArg (_ + ·) (Finset.sum_congr rfl fun k _ => congrArg x (funext fun a => Fin.ext ?_))
  match a with
  | ⟨0, _⟩ => rfl
  | ⟨1, _⟩ => rfl

end Sums

/-! ## Spreading along an axis -/

section Spread
variable {α : Type} {R C : ℕ}

/-- A vector of C entries laid along the columns of every one of R rows: entry (p, q) is entry q. -/
theorem spread_cols_ix2 (v : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (q : Fin C) :
    broadcastInDim ⟨2, ![R, C]⟩ ![0, 1] h2 (broadcastInDim ⟨2, ![1, C]⟩ ![1] h1 v) (ix2 p q) = v (ix1 q) := by
  rw [broadcastInDim_apply _ h2 _ (ix2 p q) (ix2 (0 : Fin 1) q) (fun a => by
    match a with
    | ⟨0, _⟩ => show (0 : ℕ) = if (1 : ℕ) = 1 then 0 else p.val; rw [if_pos rfl]
    | ⟨1, _⟩ =>
      show q.val = if C = 1 then 0 else q.val
      split
      · have := q.isLt; omega
      · rfl)]
  exact broadcastInDim_apply _ h1 v (ix2 (0 : Fin 1) q) (ix1 q) (fun a => by
    match a with
    | ⟨0, _⟩ =>
      show q.val = if C = 1 then 0 else q.val
      split
      · have := q.isLt; omega
      · rfl)

/-- A vector of R entries laid along the rows of every one of C columns: entry (p, q) is entry p. -/
theorem spread_rows_ix2 (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (q : Fin C) :
    broadcastInDim ⟨2, ![R, C]⟩ ![0, 1] h2 (broadcastInDim ⟨2, ![R, 1]⟩ ![0] h1 v) (ix2 p q) = v (ix1 p) := by
  rw [broadcastInDim_apply _ h2 _ (ix2 p q) (ix2 p (0 : Fin 1)) (fun a => by
    match a with
    | ⟨0, _⟩ =>
      show p.val = if R = 1 then 0 else p.val
      split
      · have := p.isLt; omega
      · rfl
    | ⟨1, _⟩ => show (0 : ℕ) = if (1 : ℕ) = 1 then 0 else q.val; rw [if_pos rfl])]
  exact broadcastInDim_apply _ h1 v (ix2 p (0 : Fin 1)) (ix1 p) (fun a => by
    match a with
    | ⟨0, _⟩ =>
      show p.val = if R = 1 then 0 else p.val
      split
      · have := p.isLt; omega
      · rfl)

/-- A one-column matrix spread over C columns: entry (p, q) is the column's entry p. -/
theorem spread_col_ix2 (w : (⟨2, ![R, 1]⟩ : Shape).Idx → α)
    (h2 : (⟨2, ![R, 1]⟩ : Shape).BroadcastsInDim ⟨2, ![R, C]⟩ ![0, 1]) (p : Fin R) (q : Fin C) :
    broadcastInDim ⟨2, ![R, C]⟩ ![0, 1] h2 w (ix2 p q) = w (ix2 p (0 : Fin 1)) :=
  broadcastInDim_apply _ h2 _ (ix2 p q) (ix2 p (0 : Fin 1)) (fun a => by
    match a with
    | ⟨0, _⟩ =>
      show p.val = if R = 1 then 0 else p.val
      split
      · have := p.isLt; omega
      · rfl
    | ⟨1, _⟩ => show (0 : ℕ) = if (1 : ℕ) = 1 then 0 else q.val; rw [if_pos rfl])

/-- A vector as a one-row matrix: entry (0, q) is entry q. -/
theorem row_ix2 (v : (⟨1, ![C]⟩ : Shape).Idx → α)
    (h1 : (⟨1, ![C]⟩ : Shape).BroadcastsInDim ⟨2, ![1, C]⟩ ![1]) (u : Fin 1) (q : Fin C) :
    broadcastInDim ⟨2, ![1, C]⟩ ![1] h1 v (ix2 u q) = v (ix1 q) :=
  broadcastInDim_apply _ h1 v (ix2 u q) (ix1 q) (fun a => by
    match a with
    | ⟨0, _⟩ =>
      show q.val = if C = 1 then 0 else q.val
      split
      · have := q.isLt; omega
      · rfl)

/-- A one-row matrix spread over R rows: entry (p, q) is the row's entry q. -/
theorem spread_row_ix2 (w : (⟨2, ![1, C]⟩ : Shape).Idx → α)
    (h2 : (⟨2, ![1, C]⟩ : Shape).BroadcastsInDim ⟨2, ![R, C]⟩ ![0, 1]) (p : Fin R) (q : Fin C) :
    broadcastInDim ⟨2, ![R, C]⟩ ![0, 1] h2 w (ix2 p q) = w (ix2 (0 : Fin 1) q) :=
  broadcastInDim_apply _ h2 _ (ix2 p q) (ix2 (0 : Fin 1) q) (fun a => by
    match a with
    | ⟨0, _⟩ => show (0 : ℕ) = if (1 : ℕ) = 1 then 0 else p.val; rw [if_pos rfl]
    | ⟨1, _⟩ =>
      show q.val = if C = 1 then 0 else q.val
      split
      · have := q.isLt; omega
      · rfl)

/-- A vector as a one-column matrix: entry (p, 0) is entry p. -/
theorem column_ix2 (v : (⟨1, ![R]⟩ : Shape).Idx → α)
    (h1 : (⟨1, ![R]⟩ : Shape).BroadcastsInDim ⟨2, ![R, 1]⟩ ![0]) (p : Fin R) (u : Fin 1) :
    broadcastInDim ⟨2, ![R, 1]⟩ ![0] h1 v (ix2 p u) = v (ix1 p) :=
  broadcastInDim_apply _ h1 v (ix2 p u) (ix1 p) (fun a => by
    match a with
    | ⟨0, _⟩ =>
      show p.val = if R = 1 then 0 else p.val
      split
      · have := p.isLt; omega
      · rfl)

end Spread

end Cert.LibHostRead

end
-- ==== Proof.PayloadAt.lean ====
/-
  The kernel body's stored values read at one index, over the extended reals.

  The body multiplies a 4000 × 128 block x by the 128 × 384 matrix W = [A | B | C], three 128 × 128 matrices side by
  side, into a zero accumulator, cuts the 4000 × 384 product into three bands of 128 columns (starting at columns 0,
  128 and 256), adds a 1 × 128 row to every row of the first band, and stores the three bands.  Over the extended
  reals a change of float format is the identity, so each stored value at (p, q) is the 128-term sum
  ∑ₖ x(p, k) · W(k, o + q) with o the band's first column, plus the row's entry q for the first band.

  Also here: column o + q of [A | B | C] is column q of A, B or C for o = 0, 128, 256; and a 128-vector viewed as a
  1 × 128 matrix has the vector's entry q at (0, q).
-/
import proofs.«125056_j84310208020812_2_alg».proof.Proof.Gen.KernelIdeal.Skeleton
import proofs.«125056_j84310208020812_2_alg».proof.Proof.LibHostRead
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayloadAt

open Idealize.ShloMosaic Idealize.ShloMosaic.ValueIdx Cert.KernelIdeal Cert.KernelIdeal.Gen

/-! ## The product -/

/-- The 4000 × 384 product at (p, c): the sum over the shared axis of the products. -/
theorem pay1_at (v0 : Vec Ideal S4000x128 .f32) (v2 : Vec Ideal S128x384 .f32) (p : Fin 4000) (c : Fin 384) :
    k0_pay1 (F := Ideal) v0 v2 (ix2 p c) = ∑ k : Fin 128, v0 (ix2 p k) * v2 (ix2 k c) := by
  have h := Cert.LibHostRead.dotGeneral_ix2 (φ₁ := .bf16) (φ₂ := .bf16) dot_S4000x128_S128x384_S4000x384_1_0_0_1_n_n
    rfl rfl rfl rfl rfl rfl none
    (truncf .bf16 v0 bitsLt_bf16_f32)
    (truncf .bf16 (shapeCast S128x384 v2 shapeCasts_S128x384_S128x384) bitsLt_bf16_f32) p c
  unfold k0_pay1
  refine (Ideal.matmul_constant_zero_apply _ none _ _ (ix2 p c)).trans ?_
  refine (Ideal.dotGeneral_apply _ none .single _ _ (ix2 p c)).symm.trans ?_
  refine h.trans ?_
  refine Finset.sum_congr rfl fun k _ => ?_
  rw [shapeCast_self]
  rfl

/-! ## A band of the product -/

/-- The band of 128 columns starting at column o, at (p, q): the product at (p, o + q). -/
theorem band_at (o : Nat) (ho : o + 128 ≤ 384) (x : FVec Ideal S4000x384 .f32)
    (h : S4000x384.Slices ![0, o] S4000x128) (p : Fin 4000) (q : Fin 128) :
    extractStridedSlice S4000x128 ![0, o] x h (ix2 p q) = x (ix2 p (⟨o + q.val, by omega⟩ : Fin 384)) := by
  refine extractStridedSlice_apply _ x h (ix2 p q) (ix2 p (⟨o + q.val, by omega⟩ : Fin 384)) fun a => ?_
  match a with
  | ⟨0, _⟩ => show p.val = 0 + p.val; omega
  | ⟨1, _⟩ => rfl

/-! ## The three stored values -/

/-- The first stored value at (p, q): band 0 of the product plus the row's entry q. -/
theorem pay2_at (v0 : Vec Ideal S4000x128 .f32) (v2 : Vec Ideal S128x384 .f32) (v7 : Vec Ideal S1x128 .f32)
    (p : Fin 4000) (q : Fin 128) :
    k0_pay2 (F := Ideal) v0 v2 v7 (ix2 p q)
      = (∑ k : Fin 128, v0 (ix2 p k) * v2 (ix2 k (⟨q.val, by omega⟩ : Fin 384))) + v7 (ix2 (0 : Fin 1) q) := by
  unfold k0_pay2
  rw [addf_apply, band_at 0 (by omega), pay1_at, broadcastTo_1b_ab_apply, shapeCast_self]
  simp only [Nat.zero_add]

/-- The second stored value at (p, q): band 128 of the product. -/
theorem pay3_at (v0 : Vec Ideal S4000x128 .f32) (v2 : Vec Ideal S128x384 .f32) (p : Fin 4000) (q : Fin 128) :
    k0_pay3 (F := Ideal) v0 v2 (ix2 p q)
      = ∑ k : Fin 128, v0 (ix2 p k) * v2 (ix2 k (⟨128 + q.val, by omega⟩ : Fin 384)) := by
  unfold k0_pay3
  rw [truncf_apply, band_at 128 (by omega), pay1_at]

/-- The third stored value at (p, q): band 256 of the product. -/
theorem pay4_at (v0 : Vec Ideal S4000x128 .f32) (v2 : Vec Ideal S128x384 .f32) (p : Fin 4000) (q : Fin 128) :
    k0_pay4 (F := Ideal) v0 v2 (ix2 p q)
      = ∑ k : Fin 128, v0 (ix2 p k) * v2 (ix2 k (⟨256 + q.val, by omega⟩ : Fin 384)) := by
  unfold k0_pay4
  rw [truncf_apply, band_at 256 (by omega), pay1_at]

/-! ## Columns of three matrices side by side -/

section Concat
variable (a b c : Vec Ideal S128x128 .f32)
  (h : Shape.Concatenates [S128x128, S128x128, S128x128] S128x384 1) (k q : Fin 128)

/-- Column q of [A | B | C], q below 128, is column q of A. -/
theorem concat_at0' :
    concatenate S128x384 1 [⟨S128x128, a⟩, ⟨S128x128, b⟩, ⟨S128x128, c⟩] h (ix2 k (⟨q.val, by omega⟩ : Fin 384))
      = a (ix2 k q) := by
  refine concatenate_apply_piece (1 : Fin S128x384.rank) [⟨S128x128, a⟩, ⟨S128x128, b⟩, ⟨S128x128, c⟩] h _ 0
    (by show 0 < 3; omega) S128x128 a rfl rfl 0 rfl (ix2 k q) (fun ax hax => ?_) (Nat.zero_add _)
  match ax with
  | ⟨0, _⟩ => rfl
  | ⟨1, _⟩ => exact absurd rfl hax

/-- Column 128 + q of [A | B | C] is column q of B. -/
theorem concat_at1' :
    concatenate S128x384 1 [⟨S128x128, a⟩, ⟨S128x128, b⟩, ⟨S128x128, c⟩] h (ix2 k (⟨128 + q.val, by omega⟩ : Fin 384))
      = b (ix2 k q) := by
  refine concatenate_apply_piece (1 : Fin S128x384.rank) [⟨S128x128, a⟩, ⟨S128x128, b⟩, ⟨S128x128, c⟩] h _ 1
    (by show 1 < 3; omega) S128x128 b rfl rfl 128 rfl (ix2 k q) (fun ax hax => ?_) rfl
  match ax with
  | ⟨0, _⟩ => rfl
  | ⟨1, _⟩ => exact absurd rfl hax

/-- Column 256 + q of [A | B | C] is column q of C. -/
theorem concat_at2' :
    concatenate S128x384 1 [⟨S128x128, a⟩, ⟨S128x128, b⟩, ⟨S128x128, c⟩] h (ix2 k (⟨256 + q.val, by omega⟩ : Fin 384))
      = c (ix2 k q) := by
  refine concatenate_apply_piece (1 : Fin S128x384.rank) [⟨S128x128, a⟩, ⟨S128x128, b⟩, ⟨S128x128, c⟩] h _ 2
    (by show 2 < 3; omega) S128x128 c rfl rfl 256 rfl (ix2 k q) (fun ax hax => ?_) rfl
  match ax with
  | ⟨0, _⟩ => rfl
  | ⟨1, _⟩ => exact absurd rfl hax

end Concat

/-- Column q of [A | B | C], q below 128, is column q of A. -/
theorem concat_at0 (a b c : Vec Ideal S128x128 .f32) (k : Fin 128) (q : Fin 128) :
    concatenate S128x384 1 [⟨S128x128, a⟩, ⟨S128x128, b⟩, ⟨S128x128, c⟩]
        concatenates_S128x128_S128x128_S128x128_S128x384_d1 (ix2 k (⟨q.val, by omega⟩ : Fin 384))
      = a (ix2 k q) :=
  concat_at0' a b c _ k q

/-- Column 128 + q of [A | B | C] is column q of B. -/
theorem concat_at1 (a b c : Vec Ideal S128x128 .f32) (k : Fin 128) (q : Fin 128) :
    concatenate S128x384 1 [⟨S128x128, a⟩, ⟨S128x128, b⟩, ⟨S128x128, c⟩]
        concatenates_S128x128_S128x128_S128x128_S128x384_d1 (ix2 k (⟨128 + q.val, by omega⟩ : Fin 384))
      = b (ix2 k q) :=
  concat_at1' a b c _ k q

/-- Column 256 + q of [A | B | C] is column q of C. -/
theorem concat_at2 (a b c : Vec Ideal S128x128 .f32) (k : Fin 128) (q : Fin 128) :
    concatenate S128x384 1 [⟨S128x128, a⟩, ⟨S128x128, b⟩, ⟨S128x128, c⟩]
        concatenates_S128x128_S128x128_S128x128_S128x384_d1 (ix2 k (⟨256 + q.val, by omega⟩ : Fin 384))
      = c (ix2 k q) :=
  concat_at2' a b c _ k q

/-! ## A vector as a one-row matrix -/

/-- A 128-vector viewed as a 1 × 128 matrix: entry (0, q) is the vector's entry q. -/
theorem biasRow_at (b : Vec Ideal S128 .f32) (q : Fin 128) :
    shapeCast S1x128 b shapeCasts_S128_S1x128 (ix2 (0 : Fin 1) q) = b (ix1 q) :=
  shapeCast_a_1a_apply b shapeCasts_S128_S1x128 (0 : Fin 1) q

end Cert.KernelIdeal.PayloadAt

end
-- ==== Proof.ProjSpec.lean ====
/-
  The three results of the fused projection, entry by entry, over the extended reals.

  With x of 100000 rows and 128 columns and M the 128×384 matrix [Wln | W1 | W2], entry (r, j) of x·M is the
  128-term sum over k of x(r,k)·M(k,j).  The linear branch is the first 128 columns of x·M plus the bias row;
  the two pre-aggregation features are the second and the third band of 128 columns.
-/
import proofs.«125056_j84310208020812_2_alg».proof.KernelIdeal
import Idealize.ShloMosaic.PureOps.Ideal
import Idealize.ShloMosaic.Lib.ValueIdx

noncomputable section

open scoped BigOperators

namespace Cert.KernelIdeal.ProjSpec

open Idealize.ShloMosaic Idealize.ShloMosaic.ValueIdx Cert.KernelIdeal

/-- Row `r` of `x` against column `j` of the 128×384 matrix. -/
def rowCol (x : S100000x128.Idx → EReal) (M : S128x384.Idx → EReal) (r : Fin 100000) (j : Fin 384) : EReal :=
  ∑ k : Fin 128, x (ix2 r k) * M (ix2 k j)

/-- The band of 128 columns of x·M starting at column `o`. -/
def proj (o : Nat) (ho : o + 128 ≤ 384) (x : S100000x128.Idx → EReal) (M : S128x384.Idx → EReal) : S100000x128.Idx → EReal :=
  fun i => rowCol x M (i 0) ⟨o + (i 1).val, by have h : (i 1).val < 128 := (i 1).isLt; omega⟩

/-- The first band plus the bias row. -/
def lin (x : S100000x128.Idx → EReal) (M : S128x384.Idx → EReal) (br : S1x128.Idx → EReal) : S100000x128.Idx → EReal :=
  fun i => proj 0 (by omega) x M i + br (ix2 (0 : Fin 1) (i 1))

end Cert.KernelIdeal.ProjSpec

end
-- ==== Proof.RegionValue.lean ====
/-
  The three output arrays of the region after the run, as whole-array functions of the arrays the region finds.

  At grid point t the body is handed rows 4000·t … 4000·t + 3999 of x and the whole weight matrix and bias row, and
  writes back, through each output window, the block of the same rows.  Entry (p, q) of what it writes is a 128-term
  sum over row 4000·t + p of x and one column of the weight matrix (plus the bias entry q for the first window), so
  each block is the restriction of one function of the whole arrays; the 25 blocks tile the 100000 rows.
-/
import proofs.«125056_j84310208020812_2_alg».proof.Proof.RegionIdeal
import proofs.«125056_j84310208020812_2_alg».proof.Proof.PayloadAt
import proofs.«125056_j84310208020812_2_alg».proof.Proof.ProjSpec
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Cert.KernelIdeal.Region Cert.KernelIdeal.ProjSpec Cert.KernelIdeal.PayloadAt
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-! ## The three bands at an entry -/

theorem band0_at (x0 : Vec Ideal S4000x128 .f32) (x1 : Vec Ideal S128x384 .f32) (x2 : Vec Ideal S1x128 .f32) (p : Fin 4000) (q : Fin 128) :
    band0 (F := Ideal) x0 x1 x2 (ix2 p q)
      = (∑ k : Fin 128, x0 (ix2 p k) * x1 (ix2 k (⟨q.val, by omega⟩ : Fin 384))) + x2 (ix2 (0 : Fin 1) q) := by
  unfold band0
  rw [View.canon_unit_zero hz]
  simp only [View.ld_unit_zero (S := S4000x128) hz, View.ld_unit_zero (S := S128x384) hz, View.ld_unit_zero (S := S1x128) hz]
  exact pay2_at x0 x1 x2 p q

theorem band1_at (x0 : Vec Ideal S4000x128 .f32) (x1 : Vec Ideal S128x384 .f32) (p : Fin 4000) (q : Fin 128) :
    band1 (F := Ideal) x0 x1 (ix2 p q) = ∑ k : Fin 128, x0 (ix2 p k) * x1 (ix2 k (⟨128 + q.val, by omega⟩ : Fin 384)) := by
  unfold band1
  rw [View.canon_unit_zero hz]
  simp only [View.ld_unit_zero (S := S4000x128) hz, View.ld_unit_zero (S := S128x384) hz]
  exact pay3_at x0 x1 p q

theorem band2_at (x0 : Vec Ideal S4000x128 .f32) (x1 : Vec Ideal S128x384 .f32) (p : Fin 4000) (q : Fin 128) :
    band2 (F := Ideal) x0 x1 (ix2 p q) = ∑ k : Fin 128, x0 (ix2 p k) * x1 (ix2 k (⟨256 + q.val, by omega⟩ : Fin 384)) := by
  unfold band2
  rw [View.canon_unit_zero hz]
  simp only [View.ld_unit_zero (S := S4000x128) hz, View.ld_unit_zero (S := S128x384) hz]
  exact pay4_at x0 x1 p q

/-! ## Which block each window stages at a point -/

/-- At grid point t the windows of x and of the three results are at row block t; the weight matrix and the bias row
    are one block each. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## Window 3: the linear branch -/

/-- What grid point `t` writes back through output window 3 is block `t` of the first column band plus the bias row, read off the arrays
    as the region finds them: row p of the block is row 4000·t + p of x, the weight matrix and the bias row are staged whole. -/
theorem flushed3_eq (c : Dev nD) (t : Fin cfg0.N) :
    (dats m 0 c).flushed 3 t = ((cfg0.win 3).blk t).view.read (Elt Ideal) (lin (V m c main_arg0) (V m c main_v0) (V m c main_v1)) := by
  show (cfg0.win 3).cut (grid0.coords t) ((dats m 0 c).after 3 t) = _
  rw [after3]
  obtain ⟨e00, e01, e10, e11, e20, e21, e30, e31, e40, e41, e50, e51⟩ := idx_facts t
  refine funext fun (j : S4000x128.Idx) => ?_
  obtain ⟨p, q, rfl⟩ : ∃ (p : Fin 4000) (q : Fin 128), j = ix2 p q := ⟨j 0, j 1, eq_ix2 j⟩
  refine (band0_at (iblk m c 0 t) (iblk m c 1 t) (iblk m c 2 t) p q).trans ?_
  have hp : p.val < 4000 := p.isLt
  have hq : q.val < 128 := q.isLt
  have hI0 : ((((cfg0.win 3).blk t).view.emb (ix2 p q)) (0 : Fin 2)).val = win0_3.index t (0 : Fin 2) * 4000 + 1 * p.val := rfl
  have hI1 : ((((cfg0.win 3).blk t).view.emb (ix2 p q)) (1 : Fin 2)).val = win0_3.index t (1 : Fin 2) * 128 + 1 * q.val := rfl
  have hx : ∀ k : Fin 128, iblk m c 0 t (ix2 p k) = V m c main_arg0 (ix2 ((((cfg0.win 3).blk t).view.emb (ix2 p q)) (0 : Fin 2)) k) := fun k => by
    show V m c main_arg0 (((cfg0.win 0).blk t).view.emb (ix2 p k)) = _
    refine congrArg (V m c main_arg0) (funext fun a => Fin.ext ?_)
    match a with
    | ⟨0, _⟩ => show win0_0.index t (0 : Fin 2) * 4000 + 1 * p.val = _; rw [hI0]; omega
    | ⟨1, _⟩ => show win0_0.index t (1 : Fin 2) * 128 + 1 * k.val = k.val; omega
  have hw : ∀ (k : Fin 128) (j : Fin 384), iblk m c 1 t (ix2 k j) = V m c main_v0 (ix2 k j) := fun k j => by
    show V m c main_v0 (((cfg0.win 1).blk t).view.emb (ix2 k j)) = _
    refine congrArg (V m c main_v0) (funext fun a => Fin.ext ?_)
    match a with
    | ⟨0, _⟩ => show win0_1.index t (0 : Fin 2) * 128 + 1 * k.val = k.val; omega
    | ⟨1, _⟩ => show win0_1.index t (1 : Fin 2) * 384 + 1 * j.val = j.val; omega
  have hb : iblk m c 2 t (ix2 (0 : Fin 1) q) = V m c main_v1 (ix2 (0 : Fin 1) ((((cfg0.win 3).blk t).view.emb (ix2 p q)) (1 : Fin 2))) := by
    show V m c main_v1 (((cfg0.win 2).blk t).view.emb (ix2 (0 : Fin 1) q)) = _
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 128 + 1 * q.val = _; rw [hI1]; omega
  show _ = (lin (V m c main_arg0) (V m c main_v0) (V m c main_v1)) (((cfg0.win 3).blk t).view.emb (ix2 p q))
  unfold lin proj rowCol
  rw [hb]
  refine congrArg (· + _) ?_
  refine Finset.sum_congr rfl fun k _ => ?_
  rw [hx k, hw k]
  refine congrArg (fun j : Fin 384 => @HMul.hMul EReal EReal EReal instHMul (V m c main_arg0 (ix2 ((((cfg0.win 3).blk t).view.emb (ix2 p q)) (0 : Fin 2)) k)) (V m c main_v0 (ix2 k j))) (Fin.ext ?_)
  show q.val = 0 + ((((cfg0.win 3).blk t).view.emb (ix2 p q)) (1 : Fin 2)).val
  rw [hI1]; omega

/-- An index of the array lies in point `t`'s block of window 3 iff its row lies in rows 4000·t … 4000·t + 3999. -/
theorem mem_blk3 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v2_0).slice (win0_3.rect t)).set ↔ _
  rw [View.set_slice_whole, Rect.mem_set_unit]
  exact Iff.rfl

/-- The 25 blocks of 4000 rows tile the array: row r lies in block r / 4000. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  have ht : t.val = (i 0).val / 4000 := rfl
  obtain ⟨e00, e01, e10, e11, e20, e21, e30, e31, e40, e41, e50, e51⟩ := idx_facts t
  refine ⟨t, flush0_3 t, ?_⟩
  rw [mem_blk3]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- The array of output window 3 after the run. -/
theorem final3 (c : Dev nD) : (dats m 0 c).arrAt 3 cfg0.N = (lin (V m c main_arg0) (V m c main_v0) (V m c main_v1)) :=
  (dats m 0 c).arrAt_eq_of_cover 3 _ (fun t _ => flushed3_eq m c t) cover3

/-! ## Window 4: the first pre-aggregation features -/

/-- What grid point `t` writes back through output window 4 is block `t` of its column band, read off the arrays
    as the region finds them: row p of the block is row 4000·t + p of x, the weight matrix and the bias row are staged whole. -/
theorem flushed4_eq (c : Dev nD) (t : Fin cfg0.N) :
    (dats m 0 c).flushed 4 t = ((cfg0.win 4).blk t).view.read (Elt Ideal) (proj 128 (by omega) (V m c main_arg0) (V m c main_v0)) := by
  show (cfg0.win 4).cut (grid0.coords t) ((dats m 0 c).after 4 t) = _
  rw [after4]
  obtain ⟨e00, e01, e10, e11, e20, e21, e30, e31, e40, e41, e50, e51⟩ := idx_facts t
  refine funext fun (j : S4000x128.Idx) => ?_
  obtain ⟨p, q, rfl⟩ : ∃ (p : Fin 4000) (q : Fin 128), j = ix2 p q := ⟨j 0, j 1, eq_ix2 j⟩
  refine (band1_at (iblk m c 0 t) (iblk m c 1 t) p q).trans ?_
  have hp : p.val < 4000 := p.isLt
  have hq : q.val < 128 := q.isLt
  have hI0 : ((((cfg0.win 4).blk t).view.emb (ix2 p q)) (0 : Fin 2)).val = win0_4.index t (0 : Fin 2) * 4000 + 1 * p.val := rfl
  have hI1 : ((((cfg0.win 4).blk t).view.emb (ix2 p q)) (1 : Fin 2)).val = win0_4.index t (1 : Fin 2) * 128 + 1 * q.val := rfl
  have hx : ∀ k : Fin 128, iblk m c 0 t (ix2 p k) = V m c main_arg0 (ix2 ((((cfg0.win 4).blk t).view.emb (ix2 p q)) (0 : Fin 2)) k) := fun k => by
    show V m c main_arg0 (((cfg0.win 0).blk t).view.emb (ix2 p k)) = _
    refine congrArg (V m c main_arg0) (funext fun a => Fin.ext ?_)
    match a with
    | ⟨0, _⟩ => show win0_0.index t (0 : Fin 2) * 4000 + 1 * p.val = _; rw [hI0]; omega
    | ⟨1, _⟩ => show win0_0.index t (1 : Fin 2) * 128 + 1 * k.val = k.val; omega
  have hw : ∀ (k : Fin 128) (j : Fin 384), iblk m c 1 t (ix2 k j) = V m c main_v0 (ix2 k j) := fun k j => by
    show V m c main_v0 (((cfg0.win 1).blk t).view.emb (ix2 k j)) = _
    refine congrArg (V m c main_v0) (funext fun a => Fin.ext ?_)
    match a with
    | ⟨0, _⟩ => show win0_1.index t (0 : Fin 2) * 128 + 1 * k.val = k.val; omega
    | ⟨1, _⟩ => show win0_1.index t (1 : Fin 2) * 384 + 1 * j.val = j.val; omega
  show _ = (proj 128 (by omega) (V m c main_arg0) (V m c main_v0)) (((cfg0.win 4).blk t).view.emb (ix2 p q))
  unfold proj rowCol
  dsimp only
  refine Finset.sum_congr rfl fun k _ => ?_
  rw [hx k, hw k]
  refine congrArg (fun j : Fin 384 => @HMul.hMul EReal EReal EReal instHMul (V m c main_arg0 (ix2 ((((cfg0.win 4).blk t).view.emb (ix2 p q)) (0 : Fin 2)) k)) (V m c main_v0 (ix2 k j))) (Fin.ext ?_)
  show 128 + q.val = 128 + ((((cfg0.win 4).blk t).view.emb (ix2 p q)) (1 : Fin 2)).val
  rw [hI1]; omega

/-- An index of the array lies in point `t`'s block of window 4 iff its row lies in rows 4000·t … 4000·t + 3999. -/
theorem mem_blk4 (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v2_1).slice (win0_4.rect t)).set ↔ _
  rw [View.set_slice_whole, Rect.mem_set_unit]
  exact Iff.rfl

/-- The 25 blocks of 4000 rows tile the array: row r lies in block r / 4000. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  have ht : t.val = (i 0).val / 4000 := rfl
  obtain ⟨e00, e01, e10, e11, e20, e21, e30, e31, e40, e41, e50, e51⟩ := idx_facts t
  refine ⟨t, flush0_4 t, ?_⟩
  rw [mem_blk4]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- The array of output window 4 after the run. -/
theorem final4 (c : Dev nD) : (dats m 0 c).arrAt 4 cfg0.N = (proj 128 (by omega) (V m c main_arg0) (V m c main_v0)) :=
  (dats m 0 c).arrAt_eq_of_cover 4 _ (fun t _ => flushed4_eq m c t) cover4

/-! ## Window 5: the second pre-aggregation features -/

/-- What grid point `t` writes back through output window 5 is block `t` of its column band, read off the arrays
    as the region finds them: row p of the block is row 4000·t + p of x, the weight matrix and the bias row are staged whole. -/
theorem flushed5_eq (c : Dev nD) (t : Fin cfg0.N) :
    (dats m 0 c).flushed 5 t = ((cfg0.win 5).blk t).view.read (Elt Ideal) (proj 256 (by omega) (V m c main_arg0) (V m c main_v0)) := by
  show (cfg0.win 5).cut (grid0.coords t) ((dats m 0 c).after 5 t) = _
  rw [after5]
  obtain ⟨e00, e01, e10, e11, e20, e21, e30, e31, e40, e41, e50, e51⟩ := idx_facts t
  refine funext fun (j : S4000x128.Idx) => ?_
  obtain ⟨p, q, rfl⟩ : ∃ (p : Fin 4000) (q : Fin 128), j = ix2 p q := ⟨j 0, j 1, eq_ix2 j⟩
  refine (band2_at (iblk m c 0 t) (iblk m c 1 t) p q).trans ?_
  have hp : p.val < 4000 := p.isLt
  have hq : q.val < 128 := q.isLt
  have hI0 : ((((cfg0.win 5).blk t).view.emb (ix2 p q)) (0 : Fin 2)).val = win0_5.index t (0 : Fin 2) * 4000 + 1 * p.val := rfl
  have hI1 : ((((cfg0.win 5).blk t).view.emb (ix2 p q)) (1 : Fin 2)).val = win0_5.index t (1 : Fin 2) * 128 + 1 * q.val := rfl
  have hx : ∀ k : Fin 128, iblk m c 0 t (ix2 p k) = V m c main_arg0 (ix2 ((((cfg0.win 5).blk t).view.emb (ix2 p q)) (0 : Fin 2)) k) := fun k => by
    show V m c main_arg0 (((cfg0.win 0).blk t).view.emb (ix2 p k)) = _
    refine congrArg (V m c main_arg0) (funext fun a => Fin.ext ?_)
    match a with
    | ⟨0, _⟩ => show win0_0.index t (0 : Fin 2) * 4000 + 1 * p.val = _; rw [hI0]; omega
    | ⟨1, _⟩ => show win0_0.index t (1 : Fin 2) * 128 + 1 * k.val = k.val; omega
  have hw : ∀ (k : Fin 128) (j : Fin 384), iblk m c 1 t (ix2 k j) = V m c main_v0 (ix2 k j) := fun k j => by
    show V m c main_v0 (((cfg0.win 1).blk t).view.emb (ix2 k j)) = _
    refine congrArg (V m c main_v0) (funext fun a => Fin.ext ?_)
    match a with
    | ⟨0, _⟩ => show win0_1.index t (0 : Fin 2) * 128 + 1 * k.val = k.val; omega
    | ⟨1, _⟩ => show win0_1.index t (1 : Fin 2) * 384 + 1 * j.val = j.val; omega
  show _ = (proj 256 (by omega) (V m c main_arg0) (V m c main_v0)) (((cfg0.win 5).blk t).view.emb (ix2 p q))
  unfold proj rowCol
  dsimp only
  refine Finset.sum_congr rfl fun k _ => ?_
  rw [hx k, hw k]
  refine congrArg (fun j : Fin 384 => @HMul.hMul EReal EReal EReal instHMul (V m c main_arg0 (ix2 ((((cfg0.win 5).blk t).view.emb (ix2 p q)) (0 : Fin 2)) k)) (V m c main_v0 (ix2 k j))) (Fin.ext ?_)
  show 256 + q.val = 256 + ((((cfg0.win 5).blk t).view.emb (ix2 p q)) (1 : Fin 2)).val
  rw [hI1]; omega

/-- An index of the array lies in point `t`'s block of window 5 iff its row lies in rows 4000·t … 4000·t + 3999. -/
theorem mem_blk5 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v2_2).slice (win0_5.rect t)).set ↔ _
  rw [View.set_slice_whole, Rect.mem_set_unit]
  exact Iff.rfl

/-- The 25 blocks of 4000 rows tile the array: row r lies in block r / 4000. -/
theorem cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  have ht : t.val = (i 0).val / 4000 := rfl
  obtain ⟨e00, e01, e10, e11, e20, e21, e30, e31, e40, e41, e50, e51⟩ := idx_facts t
  refine ⟨t, flush0_5 t, ?_⟩
  rw [mem_blk5]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- The array of output window 5 after the run. -/
theorem final5 (c : Dev nD) : (dats m 0 c).arrAt 5 cfg0.N = (proj 256 (by omega) (V m c main_arg0) (V m c main_v0)) :=
  (dats m 0 c).arrAt_eq_of_cover 5 _ (fun t _ => flushed5_eq m c t) cover5

end Cert.KernelIdeal.RegionValue

end
-- ==== Proof.ProjRef.lean ====
/-
  The three results of the fused projection are the reference's three separate products.

  With M = [A | B | C], three 128 × 128 matrices side by side, column o + q of M is column q of A, B or C for
  o = 0, 128, 256.  So the band of x·M that starts at column o is, entry by entry, the product of x with that one
  matrix: x·A, x·B, x·C, each entry the same 128-term sum.  The bias viewed as a 1 × 128 matrix has the bias's
  entry q at (0, q), and the reference spreads the bias over the rows, so its entry (r, q) is the bias's entry q
  as well: the first band plus the bias row is x·A plus the spread bias.
-/
import proofs.«125056_j84310208020812_2_alg».proof.Proof.ProjSpec
import proofs.«125056_j84310208020812_2_alg».proof.Proof.PayloadAt
import proofs.«125056_j84310208020812_2_alg».proof.Proof.LibHostRead
import proofs.«125056_j84310208020812_2_alg».proof.ReferenceIdeal
import proofs.«125056_j84310208020812_2_alg».proof.Proof.Gen.ReferenceIdeal

noncomputable section

open scoped BigOperators

namespace Cert.KernelIdeal.ProjRef

open Idealize.ShloMosaic Idealize.ShloMosaic.ValueIdx Cert.KernelIdeal Cert.KernelIdeal.Gen Cert.KernelIdeal.ProjSpec
open Cert.KernelIdeal.PayloadAt

/-- The first band of x·[A | B | C] plus the bias row is the reference's x·A plus the bias spread over the rows. -/
theorem lin_ref (x : Vec Ideal S100000x128 .f32) (a b c : Vec Ideal S128x128 .f32) (bias : Vec Ideal S128 .f32) :
    lin x (concatenate S128x384 1 [⟨S128x128, a⟩, ⟨S128x128, b⟩, ⟨S128x128, c⟩]
          concatenates_S128x128_S128x128_S128x128_S128x384_d1)
        (shapeCast S1x128 bias shapeCasts_S128_S1x128)
      = addf (F := Ideal) (φ := .f32)
          (Host.dotGeneral (F := Ideal) (φ₁ := .f32) (φ₂ := .f32) Cert.ReferenceIdeal.dot_S100000x128_S128x128_S100000x128_1_0_0_1_n_n none x a)
          (broadcastInDim Cert.ReferenceIdeal.S100000x128 ![0, 1] Cert.ReferenceIdeal.Gen.bcast_S1x128_S100000x128_0_1
            (broadcastInDim Cert.ReferenceIdeal.S1x128 ![1] Cert.ReferenceIdeal.Gen.bcast_S128_S1x128_1 bias)) := by
  funext i
  obtain ⟨r, q, rfl⟩ : ∃ r q, i = ix2 r q := ⟨i 0, i 1, eq_ix2 i⟩
  have hd := Cert.LibHostRead.dotGeneral_ix2 (φ₁ := .f32) (φ₂ := .f32) Cert.ReferenceIdeal.dot_S100000x128_S128x128_S100000x128_1_0_0_1_n_n
    rfl rfl rfl rfl rfl rfl none x a r q
  have hb := Cert.LibHostRead.spread_cols_ix2 (R := 100000) bias Cert.ReferenceIdeal.Gen.bcast_S128_S1x128_1
    Cert.ReferenceIdeal.Gen.bcast_S1x128_S100000x128_0_1 r q
  refine Eq.trans ?_ (congrArg₂ (· + ·) hd hb).symm
  unfold lin proj rowCol
  refine congrArg₂ (· + ·) (Finset.sum_congr rfl fun k _ => congrArg (x (ix2 r k) * ·) ?_) (biasRow_at bias q)
  exact (congrArg _ (congrArg (ix2 k) (Fin.ext (Nat.zero_add _)))).trans (concat_at0 a b c k q)

/-- The second band of x·[A | B | C] is the reference's x·B. -/
theorem proj1_ref (x : Vec Ideal S100000x128 .f32) (a b c : Vec Ideal S128x128 .f32) :
    proj 128 (by omega) x (concatenate S128x384 1 [⟨S128x128, a⟩, ⟨S128x128, b⟩, ⟨S128x128, c⟩]
        concatenates_S128x128_S128x128_S128x128_S128x384_d1)
      = Host.dotGeneral (F := Ideal) (φ₁ := .f32) (φ₂ := .f32) Cert.ReferenceIdeal.dot_S100000x128_S128x128_S100000x128_1_0_0_1_n_n none x b := by
  funext i
  obtain ⟨r, q, rfl⟩ : ∃ r q, i = ix2 r q := ⟨i 0, i 1, eq_ix2 i⟩
  refine Eq.trans ?_ (Cert.LibHostRead.dotGeneral_ix2 (φ₁ := .f32) (φ₂ := .f32) Cert.ReferenceIdeal.dot_S100000x128_S128x128_S100000x128_1_0_0_1_n_n
    rfl rfl rfl rfl rfl rfl none x b r q).symm
  unfold proj rowCol
  exact Finset.sum_congr rfl fun k _ => congrArg (x (ix2 r k) * ·) (concat_at1 a b c k q)

/-- The third band of x·[A | B | C] is the reference's x·C. -/
theorem proj2_ref (x : Vec Ideal S100000x128 .f32) (a b c : Vec Ideal S128x128 .f32) :
    proj 256 (by omega) x (concatenate S128x384 1 [⟨S128x128, a⟩, ⟨S128x128, b⟩, ⟨S128x128, c⟩]
        concatenates_S128x128_S128x128_S128x128_S128x384_d1)
      = Host.dotGeneral (F := Ideal) (φ₁ := .f32) (φ₂ := .f32) Cert.ReferenceIdeal.dot_S100000x128_S128x128_S100000x128_1_0_0_1_n_n none x c := by
  funext i
  obtain ⟨r, q, rfl⟩ : ∃ r q, i = ix2 r q := ⟨i 0, i 1, eq_ix2 i⟩
  refine Eq.trans ?_ (Cert.LibHostRead.dotGeneral_ix2 (φ₁ := .f32) (φ₂ := .f32) Cert.ReferenceIdeal.dot_S100000x128_S128x128_S100000x128_1_0_0_1_n_n
    rfl rfl rfl rfl rfl rfl none x c r q).symm
  unfold proj rowCol
  exact Finset.sum_congr rfl fun k _ => congrArg (x (ix2 r k) * ·) (concat_at2 a b c k q)

end Cert.KernelIdeal.ProjRef

end
-- ==== Proof.TailValue.lean ====
/-
  The host operations around the region, read as values.

  Before the region the program lays the three weight matrices side by side and the bias as one row.  After it, each
  of the two graph branches reads source and destination node of every edge from its 2×600000 edge list (a negative
  source index wraps by 100000), gathers the source rows of the region's feature array, scales row e by the weight of
  edge e, adds the rows into the destination rows of a zero array, and adds the branch's bias to every row.
-/
import proofs.«125056_j84310208020812_2_alg».proof.Proof.RegionIdeal
import Idealize.ShloMosaic.Lib.StableHlo.Run
import Idealize.ShloMosaic.PureOps.Ideal

set_option maxRecDepth 16384

noncomputable section

namespace Cert.KernelIdeal.TailValue

open Cert.KernelIdeal Cert.KernelIdeal.Gen Cert.KernelIdeal.Region
open Idealize.ShloMosaic Idealize.ShloMosaic.TcCoe Idealize.ShloMosaic.StableHlo
open Idealize.SL Idealize.SL.Sem

variable (m : (ℓ : Loc nD τ sig) → Buf (Elt Ideal) ℓ)

/-! ## Before the region -/

/-- The region finds the 128×384 weight matrix [Wln | W1 | W2]. -/
theorem V_main_v0 (c : Dev nD) : V m c main_v0
    = concatenate S128x384 1 [⟨S128x128, m ((c : Thread nD τ).loc main_arg5)⟩, ⟨S128x128, m ((c : Thread nD τ).loc main_arg7)⟩,
        ⟨S128x128, m ((c : Thread nD τ).loc main_arg9)⟩] concatenates_S128x128_S128x128_S128x128_S128x384_d1 := by
  show StableHlo.after hostOps0 (fun b => m (c, b)) (Proc.devRef .tc main_v0) = _
  after_results
  rfl

/-- The region finds the bias of the linear branch as one row. -/
theorem V_main_v1 (c : Dev nD) : V m c main_v1 = shapeCast S1x128 (m ((c : Thread nD τ).loc main_arg6)) shapeCasts_S128_S1x128 := by
  show StableHlo.after hostOps0 (fun b => m (c, b)) (Proc.devRef .tc main_v1) = _
  after_results
  rfl

/-! ## After the region -/

/-- One graph branch: gather the source rows of `h`, scale by the edge weights, add into the destination rows, add the bias. -/
def aggregate (h : FVec Ideal S100000x128 .bf16) (ei : IVec S2x600000 32) (ew : FVec Ideal S600000 .f32) (b : FVec Ideal S128 .f32) :
    FVec Ideal S100000x128 .f32 :=
  addf (F := Ideal)
      (Host.scatterAdd (F := Ideal) scatter_S100000x128_S600000x1_S600000x128_1_0_0_1
        (broadcastInDim S100000x128 ![] bcast_S_S100000x128 (constant (F := Ideal) S_ .f32 0x00000000#32))
        (broadcastInDim S600000x1 ![0] bcast_S600000_S600000x1_0
          (shapeCast S600000 (extractStridedSlice S1x600000 ![1, 0] ei slices_S2x600000_S1x600000_1_0) shapeCasts_S1x600000_S600000))
        (mulf (F := Ideal)
          (extf (F := Ideal) .f32
            (Host.gather gather_S100000x128_S600000x1_S600000x128_1_0_n_n_0_1_1128 h
              (broadcastInDim S600000x1 ![0] bcast_S600000_S600000x1_0
                (select
                  (cmpi .slt
                    (shapeCast S600000 (extractStridedSlice S1x600000 ![0, 0] ei slices_S2x600000_S1x600000_0_0) shapeCasts_S1x600000_S600000)
                    (broadcastInDim S600000 ![] bcast_S_S600000 (constantI S_ 32 0#32)))
                  (addi
                    (shapeCast S600000 (extractStridedSlice S1x600000 ![0, 0] ei slices_S2x600000_S1x600000_0_0) shapeCasts_S1x600000_S600000)
                    (broadcastInDim S600000 ![] bcast_S_S600000 (constantI S_ 32 100000#32)))
                  (shapeCast S600000 (extractStridedSlice S1x600000 ![0, 0] ei slices_S2x600000_S1x600000_0_0) shapeCasts_S1x600000_S600000))))
            bitsLt_bf16_f32)
          (broadcastInDim S600000x128 ![0, 1] bcast_S600000x1_S600000x128_0_1
            (broadcastInDim S600000x1 ![0] bcast_S600000_S600000x1_0 ew))))
      (broadcastInDim S100000x128 ![0, 1] bcast_S1x128_S100000x128_0_1
        (broadcastInDim S1x128 ![1] bcast_S128_S1x128_1 b))

set_option maxHeartbeats 4000000 in
/-- After the host operations that follow the region, the tail1 aggregated result is the aggregation of the region's
    output array 4 with the launch contents of its edge list, edge weights and bias. -/
theorem tail1 (c : Dev nD) : Pipeline.afterTail₀ cfgs (dats m) 0 (V0 m) [hostOps1] c main_v23
    = aggregate ((dats m 0 c).arrAt 4 cfg0.N) (m ((c : Thread nD τ).loc main_arg1)) (m ((c : Thread nD τ).loc main_arg2)) (m ((c : Thread nD τ).loc main_arg8)) := by
  unfold Pipeline.afterTail₀
  show StableHlo.after hostOps1 _ (Proc.devRef .tc main_v23) = _
  after_results_simp
  have ha : Pipeline.withArrays (cfgs 0).spec c (V0 m c) (fun w => (dats m 0 c).arrAt w (cfgs 0).N) (Proc.devRef .tc main_v2_1)
      = (dats m 0 c).arrAt 4 cfg0.N := Pipeline.withArrays_arr spec0 launch0.win.arr_inj c _ _ 4
  rw [ha,
    Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2)),
    Pipeline.withArrays_of_ne _ c (V0 m c) _ main_arg8 (by exact (by decide : ∀ w, Pipeline.arrRef spec0 w ≠ main_arg8)),
    show V0 m c (Proc.devRef .tc main_arg1) = m ((c : Thread nD τ).loc main_arg1) from V_main_arg1 m c,
    show V0 m c (Proc.devRef .tc main_arg2) = m ((c : Thread nD τ).loc main_arg2) from V_main_arg2 m c,
    show V0 m c (Proc.devRef .tc main_arg8) = m ((c : Thread nD τ).loc main_arg8) from V_main_arg8 m c]
  rfl

set_option maxHeartbeats 4000000 in
/-- After the host operations that follow the region, the tail2 aggregated result is the aggregation of the region's
    output array 5 with the launch contents of its edge list, edge weights and bias. -/
theorem tail2 (c : Dev nD) : Pipeline.afterTail₀ cfgs (dats m) 0 (V0 m) [hostOps1] c main_v44
    = aggregate ((dats m 0 c).arrAt 5 cfg0.N) (m ((c : Thread nD τ).loc main_arg3)) (m ((c : Thread nD τ).loc main_arg4)) (m ((c : Thread nD τ).loc main_arg10)) := by
  unfold Pipeline.afterTail₀
  show StableHlo.after hostOps1 _ (Proc.devRef .tc main_v44) = _
  after_results_simp
  have ha : Pipeline.withArrays (cfgs 0).spec c (V0 m c) (fun w => (dats m 0 c).arrAt w (cfgs 0).N) (Proc.devRef .tc main_v2_2)
      = (dats m 0 c).arrAt 5 cfg0.N := Pipeline.withArrays_arr spec0 launch0.win.arr_inj c _ _ 5
  rw [ha,
    Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4)),
    Pipeline.withArrays_of_ne _ c (V0 m c) _ main_arg10 (by exact (by decide : ∀ w, Pipeline.arrRef spec0 w ≠ main_arg10)),
    show V0 m c (Proc.devRef .tc main_arg3) = m ((c : Thread nD τ).loc main_arg3) from V_main_arg3 m c,
    show V0 m c (Proc.devRef .tc main_arg4) = m ((c : Thread nD τ).loc main_arg4) from V_main_arg4 m c,
    show V0 m c (Proc.devRef .tc main_arg10) = m ((c : Thread nD τ).loc main_arg10) from V_main_arg10 m c]
  rfl

end Cert.KernelIdeal.TailValue

end
-- ==== Proof.KernelValue.lean ====
/-
  The idealized kernel's run with its three results named.

  The first result is the region's first output array: x·Wln plus the bias on every row.  The second and third are the
  aggregations, by the host operations after the region, of the region's second and third output arrays, which are
  x·W1 and x·W2.  Each is stated through the plain matrix product of x with one 128×128 weight matrix, the form in
  which the reference computes it.
-/
import proofs.«125056_j84310208020812_2_alg».proof.Proof.RegionValue
import proofs.«125056_j84310208020812_2_alg».proof.Proof.ProjRef
import proofs.«125056_j84310208020812_2_alg».proof.Proof.TailValue

set_option maxRecDepth 16384

noncomputable section

namespace Cert.KernelIdeal.KernelValue

open Cert.KernelIdeal Cert.KernelIdeal.Gen Cert.KernelIdeal.Region Cert.KernelIdeal.RegionValue Cert.KernelIdeal.TailValue
open Cert.KernelIdeal.ProjSpec Cert.KernelIdeal.ProjRef
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- x times one 128×128 weight matrix, as the host computes it. -/
abbrev xW (x : (⟨S100000x128, .f32⟩ : BufTy).Contents (Elt Ideal)) (W : (⟨S128x128, .f32⟩ : BufTy).Contents (Elt Ideal)) :
    (⟨S100000x128, .f32⟩ : BufTy).Contents (Elt Ideal) :=
  Host.dotGeneral (F := Ideal) (φ₁ := .f32) (φ₂ := .f32) Cert.ReferenceIdeal.dot_S100000x128_S128x128_S100000x128_1_0_0_1_n_n none x W

/-- The linear branch: x·Wln plus the bias on every row. -/
abbrev res0 (c : Dev nD) : (⟨S100000x128, .f32⟩ : BufTy).Contents (Elt Ideal) :=
  addf (F := Ideal) (φ := .f32) (xW (m ((c.tc : Thread nD τ).loc main_arg0)) (m ((c.tc : Thread nD τ).loc main_arg5)))
    (broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 (m ((c.tc : Thread nD τ).loc main_arg6))))

/-- The first graph branch: the aggregation of x·W1. -/
abbrev res1 (c : Dev nD) : (⟨S100000x128, .f32⟩ : BufTy).Contents (Elt Ideal) :=
  aggregate (xW (m ((c.tc : Thread nD τ).loc main_arg0)) (m ((c.tc : Thread nD τ).loc main_arg7))) (m ((c.tc : Thread nD τ).loc main_arg1)) (m ((c.tc : Thread nD τ).loc main_arg2)) (m ((c.tc : Thread nD τ).loc main_arg8))

/-- The second graph branch: the aggregation of x·W2. -/
abbrev res2 (c : Dev nD) : (⟨S100000x128, .f32⟩ : BufTy).Contents (Elt Ideal) :=
  aggregate (xW (m ((c.tc : Thread nD τ).loc main_arg0)) (m ((c.tc : Thread nD τ).loc main_arg9))) (m ((c.tc : Thread nD τ).loc main_arg3)) (m ((c.tc : Thread nD τ).loc main_arg4)) (m ((c.tc : Thread nD τ).loc main_arg10))

/-- The region's first output array is the linear branch. -/
theorem arr3 (c : Dev nD) : (dats m 0 c).arrAt 3 cfg0.N = res0 m c := by
  rw [final3 m c, V_main_arg0 m c, V_main_v0 m c, V_main_v1 m c]
  exact lin_ref _ _ _ _ _

/-- The region's second output array is x·W1. -/
theorem arr4 (c : Dev nD) : (dats m 0 c).arrAt 4 cfg0.N = xW (m ((c.tc : Thread nD τ).loc main_arg0)) (m ((c.tc : Thread nD τ).loc main_arg7)) := by
  rw [final4 m c, V_main_arg0 m c, V_main_v0 m c]
  exact proj1_ref _ _ _ _

/-- The region's third output array is x·W2. -/
theorem arr5 (c : Dev nD) : (dats m 0 c).arrAt 5 cfg0.N = xW (m ((c.tc : Thread nD τ).loc main_arg0)) (m ((c.tc : Thread nD τ).loc main_arg9)) := by
  rw [final5 m c, V_main_arg0 m c, V_main_v0 m c]
  exact proj2_ref _ _ _ _

/-- Every fair execution of the idealized kernel ends with its three results at `res0`, `res1`, `res2` and its
    arguments unchanged. -/
theorem run : θ_run defs (onTc (τ := τ) (main (F := Ideal))) ⟨m, fun _ => 0, ρ⟩ (fun r => ∀ c : Dev nD,
      r.2.mem ((c.tc : Thread nD τ).loc main_v2_0) = res0 m c
      ∧ r.2.mem ((c.tc : Thread nD τ).loc main_v23) = res1 m c
      ∧ r.2.mem ((c.tc : Thread nD τ).loc main_v44) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 3).trans (arr3 m c),
      ((h c).2 main_v23 (Pipeline.mem_restRefs_of main_v23 (by decide) (by decide))).trans ((tail1 m c).trans (by rw [arr4 m c])),
      ((h c).2 main_v44 (Pipeline.mem_restRefs_of main_v44 (by decide) (by decide))).trans ((tail2 m c).trans (by rw [arr5 m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩) (run_main (F := Ideal) m ρ)

end Cert.KernelIdeal.KernelValue

end
-- ==== Proof.lean ====
/-
  The fused projection kernel against its reference, over the extended reals.

  The kernel multiplies blocks of 4000 rows of x by the three weight matrices laid side by side, one grid point per
  block, and stores the three 128-column bands of the product (the first with the bias row added); the host then runs
  the two gather–scale–scatter-add aggregations on the second and third band.  The reference multiplies x by each
  weight matrix separately.  A band of columns of x·[Wln | W1 | W2] is x times the corresponding matrix, entry by
  entry the same 128-term sum, so the three results agree; no finiteness of the inputs is needed.  The narrowing of
  the two feature arrays to a shorter float format and back is the identity on extended reals.

  The frames of the two kernel programs are the region's run with the results dropped; the reference's frame is its
  run likewise.  The idealization rewrote nothing, so it preserves the kernel trivially.
-/
import proofs.«125056_j84310208020812_2_alg».proof.Defs
import proofs.«125056_j84310208020812_2_alg».proof.Proof.Gen.Kernel
import proofs.«125056_j84310208020812_2_alg».proof.Proof.Gen.KernelIdeal
import proofs.«125056_j84310208020812_2_alg».proof.Proof.Gen.ReferenceIdeal
import proofs.«125056_j84310208020812_2_alg».proof.Proof.Gen.Pre_finite_inputs
import proofs.«125056_j84310208020812_2_alg».proof.Proof.Gen.ReferenceIdeal.Run
import proofs.«125056_j84310208020812_2_alg».proof.Proof.RegionBits
import proofs.«125056_j84310208020812_2_alg».proof.Proof.RegionIdeal
import proofs.«125056_j84310208020812_2_alg».proof.Proof.KernelValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Region.frame m ρ

theorem frame_kernelIdeal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

set_option maxHeartbeats 1000000 in
/-- Both idealized programs run, and from memories that agree on the arguments they end with the same three results:
    the reference's terms, rewritten to the kernel's memory, are the kernel's results. -/
theorem algebraic : Cert.algebraic_KernelIdeal_ReferenceIdeal := by
  intro m g m' g' _ hagree
  refine ⟨_, _, _, Cert.KernelIdeal.KernelValue.run m g, ?_⟩
  refine (θ_run Cert.ReferenceIdeal.defs _ _).mono (fun r h c => ?_) (Cert.ReferenceIdeal.Value.run (F := Ideal) m' g')
  obtain ⟨h0, h1, h2, hargs⟩ := h c
  obtain ⟨a0, a1, a2, a3, a4, a5, a6, a7, a8, a9, a10⟩ := hagree c
  refine ⟨?_, ?_, ?_, hargs⟩
  · rw [h0, a0, a5, a6]
  · rw [h1, a0, a1, a2, a7, a8]
    rfl
  · rw [h2, a0, a3, a4, a9, a10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
